-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 4
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S400x128, .f32⟩
  | .local _ .vmem, ⟨5, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 6
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S128x128_S128x128_1_0 : S128x128.Transposes [1, 0] S128x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.MatAssoc.lean ====
/-
  Associativity of the triple product  A · X · Wᵀ  on real entries, stated on the extended reals.

  For a row `a` of A (length n), a matrix X (n × d) and a row `w` of W (length d), all with REAL entries,
      ∑ₖ (∑ⱼ aⱼ · Xⱼₖ) · wₖ  =  ∑ⱼ aⱼ · (∑ₖ Xⱼₖ · wₖ).
  The left side aggregates first and projects after; the right side projects first and aggregates after.
  On the extended reals the law needs finiteness: moving a factor across a sum is distributivity, which fails at
  the infinities. With real entries every partial sum and product is the coercion of a real, and the law is the
  real one: distribute, swap the two finite sums, reassociate the products.

  The two forms are then stated for the arrays of this layer — features `x` (10000 × 128), normalized adjacency
  `adj` (10000 × 10000), weights `W` (128 × 128, row o = output feature o) — entry (r, o) of the result.
-/
import Idealize.ShloMosaic.PureOps.Ideal
import Idealize.ShloMosaic.Lib.ValueIdx

noncomputable section

open scoped BigOperators

namespace Cert.GcnLayer

open Idealize.ShloMosaic Idealize.ShloMosaic.ValueIdx

/-- A finite sum of coerced reals is the coercion of the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- (a · X) · w = a · (X · w) for a real row `a`, a real matrix `X` and a real column `w`, as extended reals. -/
theorem assoc_coe {n d : ℕ} (a : Fin n → ℝ) (X : Fin n → Fin d → ℝ) (w : Fin d → ℝ) :
    ∑ k : Fin d, (∑ j : Fin n, (a j : EReal) * (X j k : EReal)) * (w k : EReal)
      = ∑ j : Fin n, (a j : EReal) * ∑ k : Fin d, (X j k : EReal) * (w k : EReal) := by
  simp only [← EReal.coe_mul, coe_sum]
  refine congrArg (fun r : ℝ => (r : EReal)) ?_
  simp only [Finset.sum_mul, Finset.mul_sum]
  rw [Finset.sum_comm]
  exact Finset.sum_congr rfl fun j _ => Finset.sum_congr rfl fun k _ => by ring

/-- Every entry of an array of extended reals is a real number. -/
def AllReal {ι : Type*} (v : ι → EReal) : Prop := ∀ i, ∃ r : ℝ, v i = (r : EReal)

abbrev Feat : Shape := ⟨2, ![10000, 128]⟩
abbrev Adj : Shape := ⟨2, ![10000, 10000]⟩
abbrev Wgt : Shape := ⟨2, ![128, 128]⟩

/-- Aggregate, then project: entry (r, o) of (adj · x) · Wᵀ. -/
def aggProj (x : Feat.Idx → EReal) (adj : Adj.Idx → EReal) (W : Wgt.Idx → EReal) (r : Fin 10000) (o : Fin 128) : EReal :=
  ∑ k : Fin 128, (∑ j : Fin 10000, adj (ix2 r j) * x (ix2 j k)) * W (ix2 o k)

/-- Project, then aggregate: entry (r, o) of adj · (x · Wᵀ). -/
def projAgg (x : Feat.Idx → EReal) (adj : Adj.Idx → EReal) (W : Wgt.Idx → EReal) (r : Fin 10000) (o : Fin 128) : EReal :=
  ∑ j : Fin 10000, adj (ix2 r j) * ∑ k : Fin 128, x (ix2 j k) * W (ix2 o k)

/-- The layer's result as one array: entry i is the aggregate-then-project form at i's two coordinates. -/
def layer (x : Feat.Idx → EReal) (adj : Adj.Idx → EReal) (W : Wgt.Idx → EReal) : Feat.Idx → EReal :=
  fun i => aggProj x adj W ⟨(i 0).val, (i 0).isLt⟩ ⟨(i 1).val, (i 1).isLt⟩

theorem layer_ix2 (x : Feat.Idx → EReal) (adj : Adj.Idx → EReal) (W : Wgt.Idx → EReal) (r : Fin 10000) (o : Fin 128) :
    layer x adj W (ix2 r o) = aggProj x adj W r o := rfl

/-- On real entries the two orders of the triple product agree, entry by entry. -/
theorem projAgg_eq_aggProj {x : Feat.Idx → EReal} {adj : Adj.Idx → EReal} {W : Wgt.Idx → EReal}
    (hx : AllReal x) (ha : AllReal adj) (hW : AllReal W) (r : Fin 10000) (o : Fin 128) :
    projAgg x adj W r o = aggProj x adj W r o := by
  choose xr hxr using hx
  choose ar har using ha
  choose wr hwr using hW
  unfold projAgg aggProj
  simp only [hxr, har, hwr]
  exact (assoc_coe (fun j => ar (ix2 r j)) (fun j k => xr (ix2 j k)) (fun k => wr (ix2 o k))).symm

end Cert.GcnLayer

end
-- ==== Proof.RealInputs.lean ====
/-
  The precondition says of each float input that |v| < +∞ at every entry (an "all" of the comparisons, the three
  conjoined). On the extended reals |v| = max v (−v) is below +∞ exactly when v is neither infinity, that is, when v
  is a real number. So under the precondition every entry of the features, the adjacency and the weights is real.
-/
import proofs.«134518_g63136019251379_cont_9to1c4b_110_14_alg».proof.Pre_finite_inputs
import proofs.«134518_g63136019251379_cont_9to1c4b_110_14_alg».proof.Proof.MatAssoc
import Idealize.ShloMosaic.Lib.ReduceAll
import Idealize.ShloMosaic.Lib.ValueIdx

noncomputable section

namespace Cert.GcnLayer.Pre

open Idealize.ShloMosaic Idealize.ShloMosaic.ValueIdx Cert.Pre_finite_inputs Cert.GcnLayer

instance : Subsingleton S_.Idx := ⟨fun a b => funext fun d => d.elim0⟩

/-- An extended real whose absolute value compares below +∞ is a real number. -/
theorem real_of_abs_lt_inf (v : EReal)
    (h : FloatOps.cmpf (F := Ideal) (φ := .f32) .olt (FloatOps.hostAbsf (F := Ideal) (φ := .f32) v)
      (FloatOps.ofBits (F := Ideal) .f32 0x7F800000#32) = 1#1) : ∃ r : ℝ, v = (r : EReal) := by
  have htop : Ideal.ofBits .f32 0x7F800000#32 = ⊤ := by simp [Ideal.ofBits, Ideal.ieee]
  have h' : Ideal.cmp .olt (max v (-v)) (Ideal.ofBits .f32 0x7F800000#32) = 1#1 := h
  rw [htop] at h'
  unfold Ideal.cmp at h'
  have hlt : max v (-v) < ⊤ := by
    by_contra hn
    simp [hn] at h'
  induction v using EReal.rec with
  | bot => simp at hlt
  | top => simp at hlt
  | coe r => exact ⟨r, rfl⟩

variable [Cert.Pre_finite_inputs.Facts]

/-- Under the precondition, every entry of each of the three inputs is a real number. -/
theorem allReal_of_pre (x : FVec Ideal S10000x128 .f32) (adj : FVec Ideal S10000x10000 .f32) (W : FVec Ideal S128x128 .f32)
    (h : Cert.Pre_finite_inputs.fn (F := Ideal) x adj W = fun _ => 1#1) :
    AllReal x ∧ AllReal adj ∧ AllReal W := by
  have h0 := congrFun h ix0
  dsimp only [Cert.Pre_finite_inputs.fn] at h0
  obtain ⟨h01, h2⟩ := IntOp.andi_eq_one.1 h0
  obtain ⟨h0', h1⟩ := IntOp.andi_eq_one.1 h01
  refine ⟨fun i => real_of_abs_lt_inf _ ?_, fun i => real_of_abs_lt_inf _ ?_, fun i => real_of_abs_lt_inf _ ?_⟩
  · exact Host.reduce_andi_all _ _ _ _ _ h0' i
  · exact Host.reduce_andi_all _ _ _ _ _ h1 i
  · exact Host.reduce_andi_all _ _ _ _ _ h2 i

end Cert.GcnLayer.Pre

end
-- ==== Proof.RefValue.lean ====
/-
  The reference, read entry by entry: it transposes the weights, multiplies the features by the transposed
  weights (h = x · Wᵀ, a sum over the 128 input features), then multiplies the adjacency by h (a sum over the
  10000 nodes). At the ideal values entry (r, o) is therefore  ∑ⱼ adj[r, j] · (∑ₖ x[j, k] · W[o, k]) : project first,
  aggregate after. On real inputs this is the aggregate-then-project form (associativity of the triple product).
-/
import proofs.«134518_g63136019251379_cont_9to1c4b_110_14_alg».proof.Proof.Gen.ReferenceIdeal.Read
import proofs.«134518_g63136019251379_cont_9to1c4b_110_14_alg».proof.Proof.MatAssoc

noncomputable section

open scoped BigOperators

namespace Cert.GcnLayer.Ref

open Idealize.ShloMosaic Idealize.ShloMosaic.ValueIdx Cert.ReferenceIdeal Cert.ReferenceIdeal.Read Cert.GcnLayer

/-- Entry `i` of the reference's result is the project-then-aggregate form at `i`'s coordinates. -/
theorem val_apply (x : Feat.Idx → EReal) (adj : Adj.Idx → EReal) (W : Wgt.Idx → EReal) (i : Feat.Idx) :
    val_main_v2 (F := Ideal) x adj W i = projAgg x adj W ⟨(i 0).val, (i 0).isLt⟩ ⟨(i 1).val, (i 1).isLt⟩ := by
  rw [val_main_v2_apply]
  unfold projAgg
  refine Finset.sum_congr rfl fun j _ => ?_
  have el : lidx_main_v2 i j = ix2 (⟨(i 0).val, (i 0).isLt⟩ : Fin 10000) j :=
    funext fun a => Fin.ext (by match a with | ⟨0, _⟩ => rfl | ⟨1, _⟩ => rfl)
  rw [el, val_main_v1_apply]
  refine congrArg (adj (ix2 (⟨(i 0).val, (i 0).isLt⟩ : Fin 10000) j) * ·) ?_
  refine Finset.sum_congr rfl fun k _ => ?_
  rw [val_main_v0_apply]
  have e1 : lidx_main_v1 (ridx_main_v2 i j) k = ix2 j k :=
    funext fun a => Fin.ext (by match a with | ⟨0, _⟩ => rfl | ⟨1, _⟩ => rfl)
  have e2 : idx_main_v0 (ridx_main_v1 (ridx_main_v2 i j) k) = ix2 (⟨(i 1).val, (i 1).isLt⟩ : Fin 128) k :=
    funext fun a => Fin.ext (by match a with | ⟨0, _⟩ => rfl | ⟨1, _⟩ => rfl)
  rw [e1, e2]

/-- On real inputs the reference's result is the layer's array (aggregate, then project). -/
theorem val_eq_layer {x : Feat.Idx → EReal} {adj : Adj.Idx → EReal} {W : Wgt.Idx → EReal}
    (hx : AllReal x) (ha : AllReal adj) (hW : AllReal W) :
    val_main_v2 (F := Ideal) x adj W = layer x adj W :=
  funext fun i => (val_apply x adj W i).trans (projAgg_eq_aggProj hx ha hW _ _)

end Cert.GcnLayer.Ref

end
-- ==== Proof.BlockEntry.lean ====
/-
  One grid step of the kernel, read entry by entry. The step holds a block of 400 adjacency rows (400 × 10000),
  all the features (10000 × 128) and all the weights (128 × 128). It first multiplies the adjacency block by the
  features (a sum over the 10000 nodes, into a zero accumulator), then multiplies that 400 × 128 result by the
  weights contracting the weights' SECOND axis (a sum over the 128 input features, again into a zero accumulator).
  At the ideal values entry (p, o) of what the step stores is
      ∑ₖ (∑ⱼ block[p, j] · x[j, k]) · W[o, k].
-/
import proofs.«134518_g63136019251379_cont_9to1c4b_110_14_alg».proof.Proof.Gen.KernelIdeal.Skeleton
import Idealize.ShloMosaic.PureOps.Ideal.Laws
import Idealize.ShloMosaic.Lib.ValueIdx

noncomputable section

open scoped BigOperators

namespace Cert.GcnLayer.Kern

open Idealize.ShloMosaic Idealize.ShloMosaic.ValueIdx Cert.KernelIdeal Cert.KernelIdeal.Gen

/-! ### The first product's operand indices: rows of the block against columns of the features -/

theorem agg_lhs0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem agg_lhs1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem agg_rhs0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem agg_rhs1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Entry (p, k) of block · features is the sum over the nodes j of block[p, j] · x[j, k]. -/
theorem agg_apply (blk : FVec Ideal S400x10000 .f32) (x : FVec Ideal S10000x128 .f32) (p : Fin 400) (k : Fin 128) :
    matmul (F := Ideal) dot_S400x10000_S10000x128_S400x128_1_0_0_1_n_n none blk x (constant S400x128 .f32 0x00000000#32) (ix2 p k)
      = ∑ j : Fin 10000, blk (ix2 p j) * x (ix2 j k) := by
  simp only [matmul]
  rw [Ideal.matmul_constant_zero_apply, ← Equiv.sum_comp (contrEquiv1 dot_S400x10000_S10000x128_S400x128_1_0_0_1_n_n 10000 rfl rfl).symm]
  refine Finset.sum_congr rfl fun j _ => ?_
  have hj := contrEquiv1_symm_val dot_S400x10000_S10000x128_S400x128_1_0_0_1_n_n 10000 rfl rfl j
  have el : dot_S400x10000_S10000x128_S400x128_1_0_0_1_n_n.lhsIdx (ix2 p k) ((contrEquiv1 dot_S400x10000_S10000x128_S400x128_1_0_0_1_n_n 10000 rfl rfl).symm j) = ix2 p j := funext fun a => Fin.ext (by
    match a with
    | ⟨0, _⟩ => exact agg_lhs0 _ _
    | ⟨1, _⟩ => exact (agg_lhs1 _ _).trans hj)
  have er : dot_S400x10000_S10000x128_S400x128_1_0_0_1_n_n.rhsIdx (ix2 p k) ((contrEquiv1 dot_S400x10000_S10000x128_S400x128_1_0_0_1_n_n 10000 rfl rfl).symm j) = ix2 j k := funext fun a => Fin.ext (by
    match a with
    | ⟨0, _⟩ => exact (agg_rhs0 _ _).trans hj
    | ⟨1, _⟩ => exact agg_rhs1 _ _)
  rw [el, er]

/-! ### The second product's operand indices: rows of the aggregate against ROWS of the weights -/

theorem proj_lhs0 (i : S400x128.Idx) (q : dot_S400x128_S128x128_S400x128_1_1_0_0_n_n.contr.Idx) :
    (dot_S400x128_S128x128_S400x128_1_1_0_0_n_n.lhsIdx i q 0).val = (i 0).val := by
  unfold DotDims.lhsIdx
  rw [dif_neg (show ¬(0 : Fin S400x128.rank) ∈ dot_S400x128_S128x128_S400x128_1_1_0_0_n_n.lhsBatch by decide), dif_pos (show (0 : Fin S400x128.rank) ∈ dot_S400x128_S128x128_S400x128_1_1_0_0_n_n.lhsNonContracting by decide)]
  rfl
theorem proj_lhs1 (i : S400x128.Idx) (q : dot_S400x128_S128x128_S400x128_1_1_0_0_n_n.contr.Idx) :
    (dot_S400x128_S128x128_S400x128_1_1_0_0_n_n.lhsIdx i q 1).val = (q ⟨0, by decide⟩).val :=
  dot_S400x128_S128x128_S400x128_1_1_0_0_n_n.lhsIdx_val_of_single rfl i q
theorem proj_rhs0 (i : S400x128.Idx) (q : dot_S400x128_S128x128_S400x128_1_1_0_0_n_n.contr.Idx) :
    (dot_S400x128_S128x128_S400x128_1_1_0_0_n_n.rhsIdx i q 0).val = (i 1).val := by
  unfold DotDims.rhsIdx
  rw [dif_neg (show ¬(0 : Fin S128x128.rank) ∈ dot_S400x128_S128x128_S400x128_1_1_0_0_n_n.rhsBatch by decide), dif_pos (show (0 : Fin S128x128.rank) ∈ dot_S400x128_S128x128_S400x128_1_1_0_0_n_n.rhsNonContracting by decide)]
  rfl
theorem proj_rhs1 (i : S400x128.Idx) (q : dot_S400x128_S128x128_S400x128_1_1_0_0_n_n.contr.Idx) :
    (dot_S400x128_S128x128_S400x128_1_1_0_0_n_n.rhsIdx i q 1).val = (q ⟨0, by decide⟩).val :=
  dot_S400x128_S128x128_S400x128_1_1_0_0_n_n.rhsIdx_val_of_single rfl i q

/-- Entry (p, o) of u · Wᵀ is the sum over the input features k of u[p, k] · W[o, k]. -/
theorem proj_apply (u : FVec Ideal S400x128 .f32) (W : FVec Ideal S128x128 .f32) (p : Fin 400) (o : Fin 128) :
    matmul (F := Ideal) dot_S400x128_S128x128_S400x128_1_1_0_0_n_n none u W (constant S400x128 .f32 0x00000000#32) (ix2 p o)
      = ∑ k : Fin 128, u (ix2 p k) * W (ix2 o k) := by
  simp only [matmul]
  rw [Ideal.matmul_constant_zero_apply, ← Equiv.sum_comp (contrEquiv1 dot_S400x128_S128x128_S400x128_1_1_0_0_n_n 128 rfl rfl).symm]
  refine Finset.sum_congr rfl fun k _ => ?_
  have hk := contrEquiv1_symm_val dot_S400x128_S128x128_S400x128_1_1_0_0_n_n 128 rfl rfl k
  have el : dot_S400x128_S128x128_S400x128_1_1_0_0_n_n.lhsIdx (ix2 p o) ((contrEquiv1 dot_S400x128_S128x128_S400x128_1_1_0_0_n_n 128 rfl rfl).symm k) = ix2 p k := funext fun a => Fin.ext (by
    match a with
    | ⟨0, _⟩ => exact proj_lhs0 _ _
    | ⟨1, _⟩ => exact (proj_lhs1 _ _).trans hk)
  have er : dot_S400x128_S128x128_S400x128_1_1_0_0_n_n.rhsIdx (ix2 p o) ((contrEquiv1 dot_S400x128_S128x128_S400x128_1_1_0_0_n_n 128 rfl rfl).symm k) = ix2 o k := funext fun a => Fin.ext (by
    match a with
    | ⟨0, _⟩ => exact proj_rhs0 _ _
    | ⟨1, _⟩ => exact (proj_rhs1 _ _).trans hk)
  rw [el, er]

/-- What one step stores, at entry (p, o): aggregate over the nodes, then project by row o of the weights. -/
theorem stored_apply (blk : FVec Ideal S400x10000 .f32) (x : FVec Ideal S10000x128 .f32) (W : FVec Ideal S128x128 .f32)
    (p : Fin 400) (o : Fin 128) :
    k0_pay1 (F := Ideal) blk x W (ix2 p o) = ∑ k : Fin 128, (∑ j : Fin 10000, blk (ix2 p j) * x (ix2 j k)) * W (ix2 o k) := by
  unfold k0_pay1
  refine (proj_apply _ W p o).trans ?_
  exact Finset.sum_congr rfl fun k _ => congrArg (· * W (ix2 o k)) (agg_apply blk x p k)

end Cert.GcnLayer.Kern

end
-- ==== Proof.LayerRun.lean ====
/-
  From the grid steps to the whole result array. The grid has 25 steps; step t reads adjacency rows
  400·t … 400·t + 399 (all 10000 columns), all the features and all the weights, and writes back result rows
  400·t … 400·t + 399 (all 128 columns). Entry (p, o) of what step t writes is the layer's entry (400·t + p, o):
  the adjacency row it aggregates over is row 400·t + p of the whole array. The 25 row blocks tile the 10000 rows
  (row r lies in the block of step r / 400), so after the run the result array is the layer's array everywhere.
-/
import proofs.«134518_g63136019251379_cont_9to1c4b_110_14_alg».proof.Proof.Gen.KernelIdeal.Value
import proofs.«134518_g63136019251379_cont_9to1c4b_110_14_alg».proof.Proof.BlockEntry
import proofs.«134518_g63136019251379_cont_9to1c4b_110_14_alg».proof.Proof.MatAssoc

noncomputable section

open scoped BigOperators

namespace Cert.GcnLayer.Run

open Cert.KernelIdeal Cert.KernelIdeal.Gen Idealize.ShloMosaic Idealize.ShloMosaic.TcCoe Idealize.ShloMosaic.ValueIdx Idealize.SL.Sem
open Idealize.ShloMosaic.Pipeline (Dat)
open Cert.GcnLayer

variable (m : (ℓ : Loc nD τ sig) → Buf (Elt Ideal) ℓ) (ρ : Dev nD → PrngReg)

theorem zero_offsets : (![0, 0] : Fin 2 → Nat) = fun _ => 0 := funext fun a => by fin_cases a <;> rfl

/-- The block index maps over the 25 steps: features and weights stay at block (0, 0); the adjacency and the result
    move down one row block per step. -/
theorem block_index : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem step_lt (t : Fin cfg0.N) : t.val < 25 := lt_of_lt_of_eq t.isLt N_0

/-- At every step the features' block is the whole feature array. -/
theorem features_block (c : Dev nD) (t : Fin cfg0.N) (y : S10000x128.Idx) :
    (iblk m c 0 t : Vec Ideal S10000x128 .f32) y = V m c main_arg0 y := by
  obtain ⟨e0, e1, -⟩ := block_index t
  show V m c main_arg0 (((cfg0.win 0).blk t).view.emb y) = V m c main_arg0 y
  refine congrArg (V m c main_arg0) ?_
  funext a; apply Fin.ext
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- At every step the weights' block is the whole weight array. -/
theorem weights_block (c : Dev nD) (t : Fin cfg0.N) (y : S128x128.Idx) :
    (iblk m c 1 t : Vec Ideal S128x128 .f32) y = V m c main_arg2 y := by
  obtain ⟨-, -, e0, e1, -⟩ := block_index t
  show V m c main_arg2 (((cfg0.win 1).blk t).view.emb y) = V m c main_arg2 y
  refine congrArg (V m c main_arg2) ?_
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- Row p of step t's adjacency block is row 400·t + p of the adjacency. -/
theorem adjacency_block (c : Dev nD) (t : Fin cfg0.N) (p : Fin 400) (j : Fin 10000) (r : Fin 10000)
    (hr : r.val = 400 * t.val + p.val) :
    (iblk m c 2 t : Vec Ideal S400x10000 .f32) (ix2 p j) = V m c main_arg1 (ix2 r j) := by
  obtain ⟨-, -, -, -, e0, e1, -⟩ := block_index t
  show V m c main_arg1 (((cfg0.win 2).blk t).view.emb (ix2 p j)) = V m c main_arg1 (ix2 r j)
  refine congrArg (V m c main_arg1) ?_
  funext a; apply Fin.ext
  match a with
  | ⟨0, _⟩ => show win0_2.index t (0 : Fin 2) * 400 + 1 * p.val = r.val; rw [e0, hr]; omega
  | ⟨1, _⟩ => show win0_2.index t (1 : Fin 2) * 10000 + 1 * j.val = j.val; rw [e1]; omega

/-- Entry (p, o) of step t's result block sits at entry (400·t + p, o) of the result array. -/
theorem result_position (t : Fin cfg0.N) (p : Fin 400) (o : Fin 128) (r : Fin 10000) (hr : r.val = 400 * t.val + p.val) :
    ((cfg0.win 3).blk t).view.emb (ix2 p o) = (ix2 r o : S10000x128.Idx) := by
  obtain ⟨-, -, -, -, -, -, e0, e1⟩ := block_index t
  funext a; apply Fin.ext
  match a with
  | ⟨0, _⟩ => show win0_3.index t (0 : Fin 2) * 400 + 1 * p.val = r.val; rw [e0, hr]; omega
  | ⟨1, _⟩ => show win0_3.index t (1 : Fin 2) * 128 + 1 * o.val = o.val; rw [e1]; omega

/-- What step t writes back is its row block of the layer's array of the inputs as the kernel finds them. -/
theorem written_block (c : Dev nD) (t : Fin cfg0.N) :
    (dats m 0 c).flushed 3 t
      = ((cfg0.win 3).blk t).view.read (Elt Ideal) (layer (V m c main_arg0) (V m c main_arg1) (V m c main_arg2)) := by
  rw [Cert.KernelIdeal.Value.flushed3]
  unfold out0_3
  rw [View.canon_unit_zero zero_offsets]
  simp only [View.ld_unit_zero (S := S400x10000) zero_offsets, View.ld_unit_zero (S := S10000x128) zero_offsets,
    View.ld_unit_zero (S := S128x128) zero_offsets]
  funext y
  obtain ⟨p, o, rfl⟩ : ∃ (p : Fin 400) (o : Fin 128), y = ix2 p o := ⟨y 0, y 1, eq_ix2 y⟩
  have ht := step_lt t
  have hr : (⟨400 * t.val + p.val, by have := p.isLt; omega⟩ : Fin 10000).val = 400 * t.val + p.val := rfl
  show k0_pay1 (F := Ideal) (iblk m c 2 t) (iblk m c 0 t) (iblk m c 1 t) (ix2 p o)
    = layer (V m c main_arg0) (V m c main_arg1) (V m c main_arg2) (((cfg0.win 3).blk t).view.emb (ix2 p o))
  refine (Kern.stored_apply (iblk m c 2 t) (iblk m c 0 t) (iblk m c 1 t) p o).trans ?_
  refine Eq.trans ?_ (congrArg (layer (V m c main_arg0) (V m c main_arg1) (V m c main_arg2)) (result_position t p o _ hr)).symm
  refine Eq.trans ?_ (layer_ix2 _ _ _ _ o).symm
  unfold aggProj
  refine Finset.sum_congr rfl fun k _ => ?_
  rw [weights_block m c t (ix2 o k)]
  refine congrArg (· * V m c main_arg2 (ix2 o k)) ?_
  refine Finset.sum_congr rfl fun j _ => ?_
  rw [adjacency_block m c t p j _ hr, features_block m c t (ix2 j k)]

/-- An index of the result array is in step t's block iff each coordinate is in the block's range on its axis. -/
theorem mem_result_block (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v0).slice (win0_3.rect t)).set ↔ _
  rw [View.set_slice_whole, Rect.mem_set_unit]
  exact Iff.rfl

/-- Every entry of the result array is written by some step: row r by step r / 400. -/
theorem rows_covered (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 25 := N_0
  have hq : (i 0).val / 400 < cfg0.N := by rw [hN]; omega
  obtain ⟨-, -, -, -, -, -, e0, e1⟩ := block_index ⟨(i 0).val / 400, hq⟩
  have e0' : win0_3.index ⟨(i 0).val / 400, hq⟩ (0 : Fin 2) = (i 0).val / 400 := e0
  refine ⟨⟨(i 0).val / 400, hq⟩, flush0_3 _, ?_⟩
  rw [mem_result_block]
  intro a
  match a with
  | ⟨0, _⟩ =>
    show win0_3.index ⟨(i 0).val / 400, hq⟩ (0 : Fin 2) * 400 ≤ (i 0).val
      ∧ (i 0).val < win0_3.index ⟨(i 0).val / 400, hq⟩ (0 : Fin 2) * 400 + 400
    rw [e0']; omega
  | ⟨1, _⟩ =>
    show win0_3.index ⟨(i 0).val / 400, hq⟩ (1 : Fin 2) * 128 ≤ (i 1).val
      ∧ (i 1).val < win0_3.index ⟨(i 0).val / 400, hq⟩ (1 : Fin 2) * 128 + 128
    rw [e1]; omega

/-- After the run the result array is the layer's array of the inputs. -/
theorem result_array (c : Dev nD) :
    (dats m 0 c).arrAt 3 cfg0.N = layer (V m c main_arg0) (V m c main_arg1) (V m c main_arg2) :=
  (dats m 0 c).arrAt_eq_of_cover 3 (layer (V m c main_arg0) (V m c main_arg1) (V m c main_arg2))
    (fun t _ => written_block m c t) rows_covered

/-- The kernel's run, read: it terminates with the result array at the layer's array of the launch contents of the
    three inputs, and the inputs unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩)
    (Cert.KernelIdeal.Value.run_blocks m ρ)

end Cert.GcnLayer.Run

end
-- ==== Proof.lean ====
/-
  A graph-convolution layer: out = adj · (x · Wᵀ), for features x (10000 × 128), a dense normalized adjacency adj
  (10000 × 10000) and weights W (128 × 128).

  The reference projects first (h = x · Wᵀ) and aggregates after (adj · h). The kernel streams the adjacency in 25
  blocks of 400 rows; each step aggregates first (block · x) and projects after (· Wᵀ), and writes its 400 result
  rows. At the ideal values both matrix products are exact sums, so entry (r, o) is
      kernel:     ∑ₖ (∑ⱼ adj[r, j] · x[j, k]) · W[o, k]
      reference:  ∑ⱼ adj[r, j] · (∑ₖ x[j, k] · W[o, k]).
  The two are equal by associativity of the triple product — distributivity and a swap of two finite sums — which on
  the extended reals needs every entry to be a real number; that is what the precondition (all inputs finite) gives.

  Modules: MatAssoc (the law, and the two forms as functions of the arrays), RealInputs (precondition ⇒ real
  entries), RefValue (the reference's result, entry by entry), BlockEntry (one step's stored block, entry by entry),
  LayerRun (the steps' row blocks tile the result array; the kernel's run). Assembled here.
-/
import proofs.«134518_g63136019251379_cont_9to1c4b_110_14_alg».proof.Defs
import proofs.«134518_g63136019251379_cont_9to1c4b_110_14_alg».proof.Proof.Gen.Kernel
import proofs.«134518_g63136019251379_cont_9to1c4b_110_14_alg».proof.Proof.Gen.Kernel.Skeleton
import proofs.«134518_g63136019251379_cont_9to1c4b_110_14_alg».proof.Proof.Gen.Kernel.Launch
import proofs.«134518_g63136019251379_cont_9to1c4b_110_14_alg».proof.Proof.Gen.Kernel.Points
import proofs.«134518_g63136019251379_cont_9to1c4b_110_14_alg».proof.Proof.Gen.Kernel.Frame
import proofs.«134518_g63136019251379_cont_9to1c4b_110_14_alg».proof.Proof.Gen.KernelIdeal
import proofs.«134518_g63136019251379_cont_9to1c4b_110_14_alg».proof.Proof.Gen.KernelIdeal.Skeleton
import proofs.«134518_g63136019251379_cont_9to1c4b_110_14_alg».proof.Proof.Gen.KernelIdeal.Launch
import proofs.«134518_g63136019251379_cont_9to1c4b_110_14_alg».proof.Proof.Gen.KernelIdeal.Points
import proofs.«134518_g63136019251379_cont_9to1c4b_110_14_alg».proof.Proof.Gen.KernelIdeal.Frame
import proofs.«134518_g63136019251379_cont_9to1c4b_110_14_alg».proof.Proof.Gen.ReferenceIdeal
import proofs.«134518_g63136019251379_cont_9to1c4b_110_14_alg».proof.Proof.Gen.Pre_finite_inputs
import proofs.«134518_g63136019251379_cont_9to1c4b_110_14_alg».proof.Proof.Gen.KernelIdeal.Value
import proofs.«134518_g63136019251379_cont_9to1c4b_110_14_alg».proof.Proof.Gen.ReferenceIdeal.Run
import proofs.«134518_g63136019251379_cont_9to1c4b_110_14_alg».proof.Proof.Gen.ReferenceIdeal.Read
import proofs.«134518_g63136019251379_cont_9to1c4b_110_14_alg».proof.Proof.MatAssoc
import proofs.«134518_g63136019251379_cont_9to1c4b_110_14_alg».proof.Proof.RealInputs
import proofs.«134518_g63136019251379_cont_9to1c4b_110_14_alg».proof.Proof.RefValue
import proofs.«134518_g63136019251379_cont_9to1c4b_110_14_alg».proof.Proof.LayerRun
import Idealize.ShloMosaic.Adequacy
import Idealize.ShloMosaic.Init

noncomputable section

namespace Cert.Proof

open Idealize.ShloMosaic Idealize.SL.Sem Cert.Kernel

/-- The word-level kernel runs to the end without a fault and leaves its inputs as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs to the end and leaves its inputs as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the ideal reading. -/
theorem preserves : Cert.preserves_Kernel_KernelIdeal := trivial

/-- From inputs that agree and are finite, the kernel ends at the aggregate-then-project array and the reference at
    the project-then-aggregate array of the same real entries: one array, by associativity. -/
theorem algebraic : Cert.algebraic_KernelIdeal_ReferenceIdeal := by
  intro m ρ m' ρ' hpre hagree
  refine ⟨_, Cert.GcnLayer.Run.run m ρ, ?_⟩
  refine (θ_run Cert.ReferenceIdeal.defs _ _).mono (fun _ h c => ⟨(h c).1.trans ?_, (h c).2⟩)
    (Cert.ReferenceIdeal.Value.run (F := Ideal) m' ρ')
  obtain ⟨hx, ha, hW⟩ := Cert.GcnLayer.Pre.allReal_of_pre _ _ _ (hpre c)
  rw [(hagree c).1, (hagree c).2.1, (hagree c).2.2, Cert.ReferenceIdeal.Read.val_main_v2_eq]
  exact Cert.GcnLayer.Ref.val_eq_layer hx ha hW

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
